-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x4096 : Shape := ⟨2, ![1024, 4096]⟩
abbrev S256x4096 : Shape := ⟨2, ![256, 4096]⟩
abbrev S1x256 : Shape := ⟨2, ![1, 256]⟩
abbrev S1024x256 : Shape := ⟨2, ![1024, 256]⟩

abbrev nBuf : Space → Nat
  | .hbm => 7
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S8192x4096, .bf16⟩
  | .hbm, ⟨5, _⟩ => ⟨S4096x4096, .bf16⟩
  | .hbm, ⟨6, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S256x4096, .bf16⟩
  | .local _ .vmem, ⟨3, _⟩ => ⟨S256x4096, .bf16⟩
  | .local _ .vmem, ⟨4, _⟩ => ⟨S1x256, .f32⟩
  | .local _ .vmem, ⟨5, _⟩ => ⟨S1x256, .f32⟩
  | .local _ .vmem, ⟨6, _⟩ => ⟨S1024x256, .f32⟩
  | .local _ .vmem, ⟨7, _⟩ => ⟨S1024x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4096_S1x4096 : S4096.ShapeCasts S1x4096
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  dot_S1024x4096_S256x4096_S1024x256_1_1_0_0_n_n_wf : DotDims.WF S1024x4096 S256x4096 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .bf16 = 32 ∨ (Rect.block (s := S4096x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x4096.size a
  hwx0_2 : ∀ i : grid0.Coords, EltTy.bits .f32 = 32 ∨ (Rect.block (s := S1x4096) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x4096.size a
  hwx0_3 : ∀ i : grid0.Coords, EltTy.bits .f32 = 32 ∨ (Rect.block (s := S8192x4096) S1024x256.size (cc0_transform_3 i) (hinb0_3 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_v1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Affine.lean ====
/-
  The function both programs compute: a linear layer with the weight matrix stored row per output feature,

      out (r, c) = (∑ k, x (r, k) · w (c, k)) + b c,

  over the extended reals — every entry of the result is one inner product of a row of `x` with a row of `w`,
  plus the bias of that output feature.  Nothing here needs the entries to be finite: only the value of each
  sum matters, never a rearrangement across an infinite entry.
-/
import Idealize.ShloMosaic.Lib.ValueIdx
import Idealize.ShloMosaic.PureOps.Ideal

noncomputable section

namespace Cert.Affine

open Idealize.ShloMosaic Idealize.ShloMosaic.ValueIdx

/-- The linear layer, entry by entry: row `r` of `x` against row `c` of `w`, plus `b c`. -/
def affine (x : (⟨2, ![8192, 4096]⟩ : Shape).Idx → EReal) (w : (⟨2, ![4096, 4096]⟩ : Shape).Idx → EReal)
    (b : (⟨1, ![4096]⟩ : Shape).Idx → EReal) : (⟨2, ![8192, 4096]⟩ : Shape).Idx → EReal :=
  fun i => (∑ k : Fin 4096, x (ix2 (i 0 : Fin 8192) k) * w (ix2 (i 1 : Fin 4096) k)) + b (ix1 (i 1 : Fin 4096))

/-- At the entry `(r, c)`. -/
theorem affine_ix2 (x : (⟨2, ![8192, 4096]⟩ : Shape).Idx → EReal) (w : (⟨2, ![4096, 4096]⟩ : Shape).Idx → EReal)
    (b : (⟨1, ![4096]⟩ : Shape).Idx → EReal) (r : Fin 8192) (c : Fin 4096) :
    affine x w b (ix2 r c) = (∑ k : Fin 4096, x (ix2 r k) * w (ix2 c k)) + b (ix1 c) := rfl

end Cert.Affine

end
-- ==== Proof.Body.lean ====
/-
  What the kernel body computes from the three blocks it loads, entry by entry.

  The body multiplies a block of 1024 rows of `x` by a block of 256 rows of `w`, contracting the second axis of
  both (so it is `x · wᵀ` on the blocks), into a zero accumulator, and adds the one-row bias block to every row.
  At the ideal values the product's entry `(p, q)` is the plain sum `∑ k, x (p, k) · w (q, k)` and the zero
  accumulator contributes nothing, so the stored entry is that sum plus the bias entry `(0, q)`.
-/
import proofs.«125780_j18245021073626_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The left operand's row coordinate at the result entry is the entry's row. -/
theorem lhs_row (i : S1024x256.Idx) (q : dot_S1024x4096_S256x4096_S1024x256_1_1_0_0_n_n.contr.Idx) :
    (dot_S1024x4096_S256x4096_S1024x256_1_1_0_0_n_n.lhsIdx i q 0).val = (i 0).val := by
  unfold DotDims.lhsIdx
  rw [dif_neg (show ¬(0 : Fin S1024x4096.rank) ∈ dot_S1024x4096_S256x4096_S1024x256_1_1_0_0_n_n.lhsBatch by decide),
    dif_pos (show (0 : Fin S1024x4096.rank) ∈ dot_S1024x4096_S256x4096_S1024x256_1_1_0_0_n_n.lhsNonContracting by decide)]
  rfl

/-- Its column coordinate is the contraction position. -/
theorem lhs_col (i : S1024x256.Idx) (q : dot_S1024x4096_S256x4096_S1024x256_1_1_0_0_n_n.contr.Idx) :
    (dot_S1024x4096_S256x4096_S1024x256_1_1_0_0_n_n.lhsIdx i q 1).val = (q ⟨0, by decide⟩).val :=
  dot_S1024x4096_S256x4096_S1024x256_1_1_0_0_n_n.lhsIdx_val_of_single rfl i q

/-- The right operand's row coordinate at the result entry is the entry's column: the right operand is used transposed. -/
theorem rhs_row (i : S1024x256.Idx) (q : dot_S1024x4096_S256x4096_S1024x256_1_1_0_0_n_n.contr.Idx) :
    (dot_S1024x4096_S256x4096_S1024x256_1_1_0_0_n_n.rhsIdx i q 0).val = (i 1).val := by
  unfold DotDims.rhsIdx
  rw [dif_neg (show ¬(0 : Fin S256x4096.rank) ∈ dot_S1024x4096_S256x4096_S1024x256_1_1_0_0_n_n.rhsBatch by decide),
    dif_pos (show (0 : Fin S256x4096.rank) ∈ dot_S1024x4096_S256x4096_S1024x256_1_1_0_0_n_n.rhsNonContracting by decide)]
  rfl

/-- Its column coordinate is the contraction position. -/
theorem rhs_col (i : S1024x256.Idx) (q : dot_S1024x4096_S256x4096_S1024x256_1_1_0_0_n_n.contr.Idx) :
    (dot_S1024x4096_S256x4096_S1024x256_1_1_0_0_n_n.rhsIdx i q 1).val = (q ⟨0, by decide⟩).val :=
  dot_S1024x4096_S256x4096_S1024x256_1_1_0_0_n_n.rhsIdx_val_of_single rfl i q

/-- The block product into the zero accumulator, at the entry `(p, q)`: row `p` of the left block against row `q`
    of the right block. -/
theorem product_apply (x0 : FVec Ideal S1024x4096 .bf16) (x1 : FVec Ideal S256x4096 .bf16) (p : Fin 1024) (q : Fin 256) :
    matmul dot_S1024x4096_S256x4096_S1024x256_1_1_0_0_n_n none x0 x1 (constant (F := Ideal) S1024x256 .f32 0x00000000#32) (ix2 p q)
      = ∑ k : Fin 4096, x0 (ix2 p k) * x1 (ix2 q k) := by
  show FloatOps.matmul _ _ _ _ _ _ = _
  rw [Ideal.matmul_constant_zero_apply,
    ← Equiv.sum_comp (contrEquiv1 dot_S1024x4096_S256x4096_S1024x256_1_1_0_0_n_n 4096 rfl rfl).symm]
  refine Finset.sum_congr rfl fun k _ => ?_
  have hk := contrEquiv1_symm_val dot_S1024x4096_S256x4096_S1024x256_1_1_0_0_n_n 4096 rfl rfl k
  have el : dot_S1024x4096_S256x4096_S1024x256_1_1_0_0_n_n.lhsIdx (ix2 p q)
      ((contrEquiv1 dot_S1024x4096_S256x4096_S1024x256_1_1_0_0_n_n 4096 rfl rfl).symm k) = ix2 p k :=
    funext fun a => Fin.ext (by
      match a with
      | ⟨0, _⟩ => exact lhs_row _ _
      | ⟨1, _⟩ => exact (lhs_col _ _).trans hk)
  have er : dot_S1024x4096_S256x4096_S1024x256_1_1_0_0_n_n.rhsIdx (ix2 p q)
      ((contrEquiv1 dot_S1024x4096_S256x4096_S1024x256_1_1_0_0_n_n 4096 rfl rfl).symm k) = ix2 q k :=
    funext fun a => Fin.ext (by
      match a with
      | ⟨0, _⟩ => exact rhs_row _ _
      | ⟨1, _⟩ => exact (rhs_col _ _).trans hk)
  rw [el, er]

/-- The value the body stores, at the entry `(p, q)` of the output block: the inner product of row `p` of the
    `x` block with row `q` of the `w` block, plus the bias block's entry `(0, q)`. -/
theorem stored_apply (x0 : Vec Ideal S1024x4096 .bf16) (x1 : Vec Ideal S256x4096 .bf16) (x2 : Vec Ideal S1x256 .f32)
    (p : Fin 1024) (q : Fin 256) :
    k0_pay1 (F := Ideal) x0 x1 x2 (ix2 p q) = (∑ k : Fin 4096, x0 (ix2 p k) * x1 (ix2 q k)) + x2 (ix2 (0 : Fin 1) q) := by
  unfold k0_pay1
  simp only [shapeCast_self]
  show (matmul dot_S1024x4096_S256x4096_S1024x256_1_1_0_0_n_n none x0 x1 (constant (F := Ideal) S1024x256 .f32 0x00000000#32) (ix2 p q) : EReal)
      + broadcastTo S1024x256 x2 broadcasts_S1x256_S1024x256 (ix2 p q) = _
  rw [product_apply, broadcastTo_1b_ab_apply]

end Cert.KernelIdeal.Body

end
-- ==== Proof.Entry.lean ====
/-
  The three arrays the kernel's windows are cut from, as the region finds them, in terms of the arguments.

  Before the region the host code changes the float format of `x` and of `w` (at the ideal values a change of format
  is the identity, so those two arrays ARE the arguments) and reshapes the bias vector to a one-row matrix (whose
  entry `(0, j)` is the vector's entry `j`).
-/
import proofs.«125780_j18245021073626_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The array the `x` window is cut from is the argument `x`: only its format was changed. -/
theorem x_entry (c : Dev nD) :
    (V m c main_v1 : S8192x4096.Idx → EReal) = m ((c : Thread nD τ).loc main_arg0) := by
  dsimp only [Gen.V, Gen.hostOps0]
  after_results
  rfl

/-- The array the `w` window is cut from is the argument `w`: only its format was changed. -/
theorem w_entry (c : Dev nD) :
    (V m c main_v2 : S4096x4096.Idx → EReal) = m ((c : Thread nD τ).loc main_arg1) := by
  dsimp only [Gen.V, Gen.hostOps0]
  after_results
  rfl

/-- The array the bias window is cut from is the bias vector as one row. -/
theorem b_entry (c : Dev nD) :
    (V m c main_v0 : S1x4096.Idx → EReal)
      = shapeCast S1x4096 (m ((c : Thread nD τ).loc main_arg2) : S4096.Idx → EReal) shapeCasts_S4096_S1x4096 := by
  dsimp only [Gen.V, Gen.hostOps0]
  after_results
  rfl

/-- Its entry `(0, j)` is the vector's entry `j`. -/
theorem b_entry_apply (c : Dev nD) (u : Fin 1) (j : Fin 4096) :
    (V m c main_v0 : S1x4096.Idx → EReal) (ix2 u j) = (m ((c : Thread nD τ).loc main_arg2) : S4096.Idx → EReal) (ix1 j) := by
  rw [b_entry, shapeCast_a_1a_apply]

end Cert.KernelIdeal.Entry

end
-- ==== Proof.Result.lean ====
/-
  From blocks to the whole array.

  The grid has 8 × 16 points; point `(a, d)` works on rows `1024·a … 1024·a + 1023` of `x`, rows
  `256·d … 256·d + 255` of `w` (all 4096 columns of each), entries `256·d … 256·d + 255` of the bias row, and writes
  the `1024 × 256` block of the result at block position `(a, d)`.  Entry `(p, q)` of what it writes is the inner
  product of row `1024·a + p` of `x` with row `256·d + q` of `w` plus `b (256·d + q)`: the linear layer's entry
  `(1024·a + p, 256·d + q)`.  The 128 blocks tile the `8192 × 4096` result, so after the run the result array is
  the linear layer of the arguments.
-/
import proofs.«125780_j18245021073626_2_alg».proof.Proof.Gen.KernelIdeal.Value
import proofs.«125780_j18245021073626_2_alg».proof.Proof.Affine
import proofs.«125780_j18245021073626_2_alg».proof.Proof.Body
import proofs.«125780_j18245021073626_2_alg».proof.Proof.Entry

set_option maxRecDepth 16384

noncomputable section

namespace Cert.KernelIdeal.Result

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The linear layer of the arguments on core `c`. -/
def result (c : Dev nD) : S8192x4096.Idx → EReal :=
  Cert.Affine.affine (m ((c : Thread nD τ).loc main_arg0)) (m ((c : Thread nD τ).loc main_arg1)) (m ((c : Thread nD τ).loc main_arg2))

/-- The block positions, decided over the 128 points: the `x` window follows the result's block row and the `w` and bias
    windows its block column; the `x` and `w` windows take all columns and the bias window its one row. -/
theorem positions : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 7
    ∧ win0_3.index t (1 : Fin 2) ≤ 15 :=
  (by decide +kernel : ∀ t : Fin grid0.N, _)

/-- Every block position of the result is some point's. -/
theorem positions_onto : ∀ (a : Fin 8) (d : Fin 16), ∃ t : Fin cfg0.N, win0_3.index t = ![a.val, d.val] :=
  (by decide +kernel : ∀ (a : Fin 8) (d : Fin 16), ∃ t : Fin grid0.N, win0_3.index t = ![a.val, d.val])

/-- Row `p` of the `x` block at point `t` is row `1024·a + p` of the argument `x`, `a` the result's block row. -/
theorem x_block (c : Dev nD) (t : Fin cfg0.N) (p : Fin 1024) (k : Fin 4096) (r : Fin 8192)
    (hr : r.val = win0_3.index t (0 : Fin 2) * 1024 + p.val) :
    iblk m c 0 t (ix2 p k) = (m ((c : Thread nD τ).loc main_arg0) : S8192x4096.Idx → EReal) (ix2 r k) := by
  show (V m c main_v1 : S8192x4096.Idx → EReal) (((cfg0.win 0).blk t).view.emb (ix2 p k)) = _
  rw [Entry.x_entry]
  obtain ⟨e0, e1, -⟩ := positions t
  refine congrArg _ (funext fun a => Fin.ext ?_)
  match a with
  | ⟨0, _⟩ => show win0_0.index t (0 : Fin 2) * 1024 + 1 * p.val = r.val; omega
  | ⟨1, _⟩ => show win0_0.index t (1 : Fin 2) * 4096 + 1 * k.val = k.val; omega

/-- Row `q` of the `w` block at point `t` is row `256·d + q` of the argument `w`, `d` the result's block column. -/
theorem w_block (c : Dev nD) (t : Fin cfg0.N) (q : Fin 256) (k : Fin 4096) (o : Fin 4096)
    (ho : o.val = win0_3.index t (1 : Fin 2) * 256 + q.val) :
    iblk m c 1 t (ix2 q k) = (m ((c : Thread nD τ).loc main_arg1) : S4096x4096.Idx → EReal) (ix2 o k) := by
  show (V m c main_v2 : S4096x4096.Idx → EReal) (((cfg0.win 1).blk t).view.emb (ix2 q k)) = _
  rw [Entry.w_entry]
  obtain ⟨-, -, e2, e3, -⟩ := positions t
  refine congrArg _ (funext fun a => Fin.ext ?_)
  match a with
  | ⟨0, _⟩ => show win0_1.index t (0 : Fin 2) * 256 + 1 * q.val = o.val; omega
  | ⟨1, _⟩ => show win0_1.index t (1 : Fin 2) * 4096 + 1 * k.val = k.val; omega

/-- Entry `(0, q)` of the bias block at point `t` is entry `256·d + q` of the bias vector. -/
theorem b_block (c : Dev nD) (t : Fin cfg0.N) (q : Fin 256) (o : Fin 4096)
    (ho : o.val = win0_3.index t (1 : Fin 2) * 256 + q.val) :
    iblk m c 2 t (ix2 (0 : Fin 1) q) = (m ((c : Thread nD τ).loc main_arg2) : S4096.Idx → EReal) (ix1 o) := by
  show (V m c main_v0 : S1x4096.Idx → EReal) (((cfg0.win 2).blk t).view.emb (ix2 (0 : Fin 1) q)) = _
  obtain ⟨-, -, -, -, e4, e5, -⟩ := positions t
  have he : ((cfg0.win 2).blk t).view.emb (ix2 (0 : Fin 1) q) = ix2 (0 : Fin 1) o := by
    funext a; apply Fin.ext
    match a with
    | ⟨0, _⟩ => show win0_2.index t (0 : Fin 2) * 1 + 1 * 0 = 0; omega
    | ⟨1, _⟩ => show win0_2.index t (1 : Fin 2) * 256 + 1 * q.val = o.val; omega
  rw [he, Entry.b_entry_apply]

/-- What point `t` writes back is block `t` of the linear layer. -/
theorem flushed_eq (c : Dev nD) (t : Fin cfg0.N) :
    (dats m 0 c).flushed 3 t = ((cfg0.win 3).blk t).view.read (Elt Ideal) (result m c) := by
  rw [Value.flushed3]
  unfold Gen.out0_3
  rw [View.canon_unit_zero origin]
  simp only [View.ld_unit_zero (S := S1024x4096) origin, View.ld_unit_zero (S := S256x4096) origin,
    View.ld_unit_zero (S := S1x256) origin]
  obtain ⟨-, -, -, -, -, -, b0, b1⟩ := positions t
  funext j
  obtain ⟨p, q, rfl⟩ : ∃ (p : Fin 1024) (q : Fin 256), j = ix2 p q := ⟨j 0, j 1, eq_ix2 j⟩
  obtain ⟨r, hr⟩ : ∃ r : Fin 8192, r.val = win0_3.index t (0 : Fin 2) * 1024 + p.val :=
    ⟨⟨win0_3.index t (0 : Fin 2) * 1024 + p.val, by have := p.isLt; omega⟩, rfl⟩
  obtain ⟨o, ho⟩ : ∃ o : Fin 4096, o.val = win0_3.index t (1 : Fin 2) * 256 + q.val :=
    ⟨⟨win0_3.index t (1 : Fin 2) * 256 + q.val, by have := q.isLt; omega⟩, rfl⟩
  have he : ((cfg0.win 3).blk t).view.emb (ix2 p q) = ix2 r o := by
    funext a; apply Fin.ext
    match a with
    | ⟨0, _⟩ => show win0_3.index t (0 : Fin 2) * 1024 + 1 * p.val = r.val; omega
    | ⟨1, _⟩ => show win0_3.index t (1 : Fin 2) * 256 + 1 * q.val = o.val; omega
  show k0_pay1 (F := Ideal) (iblk m c 0 t) (iblk m c 1 t) (iblk m c 2 t) (ix2 p q)
      = result m c (((cfg0.win 3).blk t).view.emb (ix2 p q))
  rw [he]
  refine (Body.stored_apply (iblk m c 0 t) (iblk m c 1 t) (iblk m c 2 t) p q).trans ?_
  show _ = Cert.Affine.affine _ _ _ (ix2 r o)
  rw [Cert.Affine.affine_ix2, b_block m c t q o ho]
  refine congrArg (· + _) (Finset.sum_congr rfl fun k _ => ?_)
  rw [x_block m c t p k r hr, w_block m c t q k o ho]

/-- An index of the result is in point `t`'s block iff each coordinate is in the block's range on its axis. -/
theorem mem_block (t : Fin cfg0.N) (i : S8192x4096.Idx) :
    i ∈ ((cfg0.win 3).blk t).view.set ↔ ∀ a : Fin 2, win0_3.index t a * S1024x256.size a ≤ (i a).val
      ∧ (i a).val < win0_3.index t a * S1024x256.size a + S1024x256.size a := by
  show i ∈ ((View.whole main_v3).slice (win0_3.rect t)).set ↔ _
  rw [View.set_slice_whole, Rect.mem_set_unit]
  exact Iff.rfl

/-- The blocks tile the result: entry `(r, o)` is in the block at position `(r / 1024, o / 256)`. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := positions_onto ⟨(i 0).val / 1024, by omega⟩ ⟨(i 1).val / 256, by omega⟩
  have q0 : win0_3.index t (0 : Fin 2) = (i 0).val / 1024 := congrFun ht 0
  have q1 : win0_3.index t (1 : Fin 2) = (i 1).val / 256 := congrFun ht 1
  refine ⟨t, flush0_3 t, ?_⟩
  rw [mem_block]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 256 ≤ (i 1).val ∧ (i 1).val < win0_3.index t (1 : Fin 2) * 256 + 256
    omega

/-- After the run the result array is the linear layer of the arguments. -/
theorem final (c : Dev nD) : (dats m 0 c).arrAt 3 cfg0.N = result m c :=
  (dats m 0 c).arrAt_eq_of_cover 3 (result m c) (fun t _ => flushed_eq m c t) covered

/-- The kernel's run: it ends with the result array at the linear layer of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Result

end
-- ==== Proof.Reference.lean ====
/-
  The reference computes the linear layer: its matrix product contracts the second axis of `x` with the second axis
  of `w` (entry `(r, c)` is `∑ k, x (r, k) · w (c, k)`), and the bias vector, made a row and repeated down the rows,
  adds `b c` to every entry of column `c`.
-/
import proofs.«125780_j18245021073626_2_alg».proof.Proof.Gen.ReferenceIdeal.Read
import proofs.«125780_j18245021073626_2_alg».proof.Proof.Affine

noncomputable section

namespace Cert.ReferenceIdeal.Linear

open Cert.ReferenceIdeal Cert.ReferenceIdeal.Gen Idealize.ShloMosaic Idealize.ShloMosaic.ValueIdx

/-- The reference's result, as a function of the three arguments, is the linear layer. -/
theorem result_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) :
    Read.val_main_v3 (F := Ideal) x0 x1 x2 = Cert.Affine.affine x0 x1 x2 := by
  funext i
  obtain ⟨r, c, rfl⟩ : ∃ (r : Fin 8192) (c : Fin 4096), i = ix2 r c := ⟨i 0, i 1, eq_ix2 i⟩
  have el : ∀ k : Fin 4096, Read.lidx_main_v0 (ix2 r c) k = ix2 r k := fun k =>
    funext fun a => Fin.ext (by match a with | ⟨0, _⟩ => rfl | ⟨1, _⟩ => rfl)
  have er : ∀ k : Fin 4096, Read.ridx_main_v0 (ix2 r c) k = ix2 c k := fun k =>
    funext fun a => Fin.ext (by match a with | ⟨0, _⟩ => rfl | ⟨1, _⟩ => rfl)
  have eb : Read.idx_main_v1 (Read.idx_main_v2 (ix2 r c)) = ix1 c :=
    funext fun a => Fin.ext (by match a with | ⟨0, _⟩ => rfl)
  rw [Read.val_main_v3_apply, Read.val_main_v0_apply, Read.val_main_v2_apply, Read.val_main_v1_apply, Cert.Affine.affine_ix2, eb]
  simp only [el, er]
  rfl

end Cert.ReferenceIdeal.Linear

end
-- ==== Proof.lean ====
/-
  A linear layer with the weight stored one row per output feature, `out = x · wᵀ + b` over
  `x : [8192, 4096]`, `w : [4096, 4096]`, `b : [4096]`, computed block by block, against the same layer as one
  matrix product plus a broadcast bias.

  The kernel changes the float format of `x` and `w` (the identity at the ideal values), makes the bias a row, and on
  an `8 × 16` grid multiplies 1024 rows of `x` by 256 rows of `w` over the full contraction length 4096 into a zero
  accumulator, adds the matching 256 bias entries to every row, and stores the `1024 × 256` block.  The reference
  contracts the second axes of `x` and `w` in one product and adds the bias repeated down the rows.  Entry `(r, c)` of
  both is `(∑ k, x (r, k) · w (c, k)) + b c` over the extended reals — the same sum, term for term in the same
  order, so no rearrangement and no finiteness of the entries is needed:

    * `Proof/Affine.lean`     the layer as one function of the three arguments, entry by entry;
    * `Proof/Body.lean`       what the body stores at entry `(p, q)` of a block, from the blocks it loads;
    * `Proof/Entry.lean`      the arrays the windows are cut from, in terms of the arguments;
    * `Proof/Result.lean`     each block written is a block of the layer, the blocks tile the result, the run;
    * `Proof/Reference.lean`  the reference's result is the layer.

  The three frames are the programs' runs with the result dropped; there is nothing to preserve between the kernel
  and its idealization, which is the same text read at the ideal values.
-/
import proofs.«125780_j18245021073626_2_alg».proof.Defs
import proofs.«125780_j18245021073626_2_alg».proof.Proof.Gen.Kernel
import proofs.«125780_j18245021073626_2_alg».proof.Proof.Gen.Kernel.Skeleton
import proofs.«125780_j18245021073626_2_alg».proof.Proof.Gen.Kernel.Launch
import proofs.«125780_j18245021073626_2_alg».proof.Proof.Gen.Kernel.Points
import proofs.«125780_j18245021073626_2_alg».proof.Proof.Gen.Kernel.Frame
import proofs.«125780_j18245021073626_2_alg».proof.Proof.Gen.KernelIdeal
import proofs.«125780_j18245021073626_2_alg».proof.Proof.Gen.KernelIdeal.Skeleton
import proofs.«125780_j18245021073626_2_alg».proof.Proof.Gen.KernelIdeal.Launch
import proofs.«125780_j18245021073626_2_alg».proof.Proof.Gen.KernelIdeal.Points
import proofs.«125780_j18245021073626_2_alg».proof.Proof.Gen.KernelIdeal.Frame
import proofs.«125780_j18245021073626_2_alg».proof.Proof.Gen.ReferenceIdeal
import proofs.«125780_j18245021073626_2_alg».proof.Proof.Gen.KernelIdeal.Value
import proofs.«125780_j18245021073626_2_alg».proof.Proof.Gen.ReferenceIdeal.Run
import proofs.«125780_j18245021073626_2_alg».proof.Proof.Gen.ReferenceIdeal.Read
import proofs.«125780_j18245021073626_2_alg».proof.Proof.Gen.Pre_finite_inputs
import proofs.«125780_j18245021073626_2_alg».proof.Proof.Result
import proofs.«125780_j18245021073626_2_alg».proof.Proof.Reference
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel at the ideal values. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, both programs end with the result array at the linear layer of the arguments. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.Linear.result_eq,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
